-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S4096, .f32⟩
  | .hbm, ⟨7, _⟩ => ⟨S1x4096, .f32⟩
  | .hbm, ⟨8, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.Spec.lean ====
/-
  The function both programs compute, and the one law that joins their two arrangements of it.

  The layer's output at row `r` and column `c` is the inner product of row `r` of the activations with row `c` of the
  sign matrix, over the 4096 input features, plus entry `c` of the sign of the bias. One program takes the inner product
  whole; the other takes it as four partial inner products over consecutive blocks of 1024 features, added up from zero.
  A finite sum in a commutative monoid may be regrouped freely, and the extended reals under addition are one, so the
  two agree at every entry whatever the entries are — the infinities included: nothing is asked of the inputs.
-/
import Idealize.ShloMosaic.PureOps.Ideal
import Idealize.ShloMosaic.Lib.ValueIdx
import proofs.«158805_j7035156431032_2_alg».proof.Proof.LibSumBlocks

noncomputable section

namespace Cert.BinaryLinear

open Idealize.ShloMosaic Idealize.ShloMosaic.ValueIdx

/-! ## Regrouping the features into blocks -/

/-- THE LAW at this layer's sizes: a sum over the 4096 feature positions is the sum over the four blocks of 1024 of each
    block's sum (the general law is Proof/LibSumBlocks.lean's). -/
theorem sum_features_blocks {β : Type*} [AddCommMonoid β] (f : Fin 4096 → β) :
    ∑ k : Fin 4096, f k = ∑ s ∈ Finset.range 4, ∑ q : Fin 1024, Cert.Lib.SumBlocks.onNat f (s * 1024 + q.val) :=
  Cert.Lib.SumBlocks.sum_fin_blocks 4 1024 rfl f

/-! ## The layer -/

/-- The binary linear layer over the extended reals: for activations `X` (8192 rows of 4096 features), a sign matrix `S`
    (4096 output columns, each a row of 4096 features) and a sign vector `B`, the output at `(r, c)` is
    `∑ k, X (r, k) * S (c, k) + B c`. -/
def layer (X : (⟨2, ![8192, 4096]⟩ : Shape).Idx → EReal) (S : (⟨2, ![4096, 4096]⟩ : Shape).Idx → EReal)
    (B : (⟨1, ![4096]⟩ : Shape).Idx → EReal) : (⟨2, ![8192, 4096]⟩ : Shape).Idx → EReal :=
  fun i => (∑ k : Fin 4096, X (ix2 (i 0) k) * S (ix2 (i 1) k)) + B (ix1 (i 1))

/-- The layer at an entry named by its row and column. -/
theorem layer_apply (X : (⟨2, ![8192, 4096]⟩ : Shape).Idx → EReal) (S : (⟨2, ![4096, 4096]⟩ : Shape).Idx → EReal)
    (B : (⟨1, ![4096]⟩ : Shape).Idx → EReal) (r : Fin 8192) (c : Fin 4096) :
    layer X S B (ix2 r c) = (∑ k : Fin 4096, X (ix2 r k) * S (ix2 c k)) + B (ix1 c) := rfl

end Cert.BinaryLinear

end
-- ==== Proof.ReferenceLayer.lean ====
/-
  The reference's result, read entry by entry, is the layer of Spec.lean.

  The reference takes the sign of the weights and of the bias, transposes the sign matrix, contracts the activations'
  feature axis with the transposed matrix's first axis, and adds the sign of the bias broadcast along the rows. At entry
  `(r, c)` the transposed matrix is read at `(k, c)`, which is the sign matrix at `(c, k)`; the bias row, made `[1, 4096]`
  and then `[8192, 4096]`, is read at `c`. So the entry is `∑ k, X (r, k) * S (c, k) + B c`: the layer, with `S` and `B` the
  signs of the weights and of the bias, kept as they are (the sign function is never opened: the other program applies
  the same one to the same arrays).
-/
import proofs.«158805_j7035156431032_2_alg».proof.Proof.Gen.ReferenceIdeal.Read
import proofs.«158805_j7035156431032_2_alg».proof.Proof.Spec

noncomputable section

namespace Cert.BinaryLinear.Reference

open Cert.ReferenceIdeal Cert.ReferenceIdeal.Gen Cert.ReferenceIdeal.Read Idealize.ShloMosaic Idealize.ShloMosaic.ValueIdx

/-- The left operand of the contraction at output entry `i` and feature `k` is the activations at `(row of i, k)`. -/
theorem left_index (i : S8192x4096.Idx) (k : Fin 4096) : lidx_main_v3 i k = ix2 (i 0) k :=
  funext fun a => Fin.ext (by match a with | ⟨0, _⟩ => rfl | ⟨1, _⟩ => rfl)

/-- The right operand is the transposed sign matrix at `(k, column of i)`: the sign matrix at `(column of i, k)`. -/
theorem right_index (i : S8192x4096.Idx) (k : Fin 4096) : idx_main_v2 (ridx_main_v3 i k) = ix2 (i 1) k :=
  funext fun a => Fin.ext (by match a with | ⟨0, _⟩ => rfl | ⟨1, _⟩ => rfl)

/-- The bias, broadcast to a row and then along the rows, is read at the column of `i`. -/
theorem bias_index (i : S8192x4096.Idx) : idx_main_v4 (idx_main_v5 i) = ix1 (i 1) :=
  funext fun a => Fin.ext (by match a with | ⟨0, _⟩ => rfl)

/-- THE REFERENCE IS THE LAYER: its last stage, as a function of the three arguments, is `layer` of the activations, the
    sign of the weights and the sign of the bias. -/
theorem result_eq_layer (x0 : FVec Ideal S8192x4096 .f32) (x1 : FVec Ideal S4096x4096 .f32) (x2 : FVec Ideal S4096 .f32) :
    val_main_v6 (F := Ideal) x0 x1 x2 = Cert.BinaryLinear.layer x0 (Host.sign (F := Ideal) x1) (Host.sign (F := Ideal) x2) := by
  funext i
  rw [val_main_v6_apply, val_main_v3_apply, val_main_v5_apply, val_main_v4_apply]
  simp only [val_main_v2_apply, left_index, right_index, bias_index]
  rfl

end Cert.BinaryLinear.Reference

end
-- ==== Proof.KernelPayloads.lean ====
/-
  The body's three stored values, each read at entry `(p, q)` of the 1024 × 1024 output block.

  At the first feature block the output block is cleared: every entry is zero. At every feature block the body adds to
  the output block the product of the activation block with the sign block, contracting the feature axis of both: entry
  `(p, q)` gains `∑ kk, x (p, kk) * w (q, kk)` over the block's 1024 features (the product starts from a zero accumulator,
  which adds nothing). At the last feature block the body adds the bias block, one row of 1024 entries broadcast along
  the rows: entry `(p, q)` gains the row's entry `q`. The casts of a block to its own shape are the identity.
-/
import proofs.«158805_j7035156431032_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.BinaryLinear.Kernel

open Cert.KernelIdeal Cert.KernelIdeal.Gen Idealize.ShloMosaic Idealize.ShloMosaic.ValueIdx

/-! ## The block product's operand indices -/

/-- The left operand's row is the output entry's row. -/
theorem left_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- The left operand's column is the contracted feature. -/
theorem left_feature (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k

/-- The right operand's row is the output entry's column: both operands are contracted along their second axis. -/
theorem right_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The right operand's column is the contracted feature. -/
theorem right_feature (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The block product into a zero accumulator, at `(p, q)`: the inner product of row `p` of the left block with row `q`
    of the right block. -/
theorem block_product_apply (x w : FVec Ideal S1024x1024 .bf16) (p q : Fin 1024) :
    matmul dot_S1024x1024_S1024x1024_S1024x1024_1_1_0_0_n_n none x w (constant S1024x1024 .f32 0x00000000#32) (ix2 p q)
      = ∑ kk : Fin 1024, x (ix2 p kk) * w (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun kk _ => ?_
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun a => Fin.ext (by
    match a with
    | ⟨0, _⟩ => exact left_row _ _
    | ⟨1, _⟩ => exact (left_feature _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun a => Fin.ext (by
    match a with
    | ⟨0, _⟩ => exact right_row _ _
    | ⟨1, _⟩ => exact (right_feature _ _).trans hk)
  rw [el, er]

/-! ## The three stored values -/

/-- The cleared block: zero at every entry. -/
theorem cleared_apply (j : S1024x1024.Idx) : k0_pay1 (F := Ideal) j = 0 :=
  Ideal.ofBits_zero_f32

/-- One accumulation: the block's previous contents plus the block product. -/
theorem accumulate_apply (acc : FVec Ideal S1024x1024 .f32) (x w : FVec Ideal S1024x1024 .bf16) (p q : Fin 1024) :
    k0_pay2 (F := Ideal) acc x w (ix2 p q) = acc (ix2 p q) + ∑ kk : Fin 1024, x (ix2 p kk) * w (ix2 q kk) := by
  show (addf (shapeCast S1024x1024 acc shapeCasts_S1024x1024_S1024x1024)
      (matmul dot_S1024x1024_S1024x1024_S1024x1024_1_1_0_0_n_n none (shapeCast S1024x1024 x shapeCasts_S1024x1024_S1024x1024)
        (shapeCast S1024x1024 w shapeCasts_S1024x1024_S1024x1024) (constant S1024x1024 .f32 0x00000000#32))) (ix2 p q) = _
  rw [shapeCast_self, shapeCast_self, shapeCast_self, addf_apply, block_product_apply]

/-- The bias added: the block's contents plus the bias row's entry at the column. -/
theorem add_bias_apply (a : FVec Ideal S1024x1024 .f32) (b : FVec Ideal S1x1024 .f32) (p q : Fin 1024) :
    k0_pay3 (F := Ideal) a b (ix2 p q) = a (ix2 p q) + b (ix2 (0 : Fin 1) q) := by
  show (addf (shapeCast S1024x1024 a shapeCasts_S1024x1024_S1024x1024)
      (broadcastTo S1024x1024 (shapeCast S1x1024 b shapeCasts_S1x1024_S1x1024) broadcasts_S1x1024_S1024x1024)) (ix2 p q) = _
  rw [shapeCast_self, shapeCast_self, addf_apply, broadcastTo_1b_ab_apply]

end Cert.BinaryLinear.Kernel

end
-- ==== Proof.KernelBlocks.lean ====
/-
  The three input blocks the body loads at a grid point, read at an entry, in terms of the program's arguments.

  The grid has 8 × 4 × 4 points, visited in row-major order, so point `t` stands at row block `t / 16`, column block
  `t / 4 % 4` and feature block `t % 4`. Before the grid runs, the host narrows the activations to bf16, takes the sign of
  the weights and narrows it to bf16, and takes the sign of the bias and makes it a `[1, 4096]` row. Narrowing a format
  is the identity on the extended reals, so the three arrays the grid reads are the activations themselves, the sign of
  the weights, and the sign of the bias as a row.
  At point `t` the body finds: the activations' 1024 × 1024 block at (row block, feature block); the sign matrix's block at
  (column block, feature block); the bias row's 1 × 1024 block at the column block. An entry of a block is the array's
  entry at block number × 1024 + the position inside the block, on each axis.
-/
import proofs.«158805_j7035156431032_2_alg».proof.Proof.Gen.KernelIdeal.Frame.Runs
import Idealize.ShloMosaic.Lib.StableHlo.Run
import Idealize.ShloMosaic.Lib.ValueIdx
import Idealize.ShloMosaic.Lib.ValueLayout
import Idealize.ShloMosaic.Lib.Pipeline.Value

noncomputable section

namespace Cert.BinaryLinear.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arguments, and the arrays the grid reads -/

/-- The activations: 8192 rows of 4096 features. -/
abbrev activations (c : Dev nD) : FVec Ideal S8192x4096 .f32 := m ((c : Thread nD τ).loc main_arg0)
/-- The weights: 4096 output columns, each a row of 4096 features. -/
abbrev weights (c : Dev nD) : FVec Ideal S4096x4096 .f32 := m ((c : Thread nD τ).loc main_arg1)
/-- The bias: 4096 entries. -/
abbrev bias (c : Dev nD) : FVec Ideal S4096 .f32 := m ((c : Thread nD τ).loc main_arg2)

/-- The first array the grid reads is the activations: narrowing to bf16 changes no extended real. -/
theorem staged_activations (c : Dev nD) : (V m c main_v0 : S8192x4096.Idx → EReal) = activations m c := by
  dsimp only [V, hostOps0]
  after_results
  rfl

/-- The second is the sign of the weights. -/
theorem staged_signs (c : Dev nD) : (V m c main_v2 : S4096x4096.Idx → EReal) = Host.sign (F := Ideal) (weights m c) := by
  dsimp only [V, hostOps0]
  after_results
  rfl

/-- The third is the sign of the bias, as one row. -/
theorem staged_bias_row (c : Dev nD) :
    (V m c main_v4 : S1x4096.Idx → EReal) = shapeCast S1x4096 (Host.sign (F := Ideal) (bias m c)) shapeCasts_S4096_S1x4096 := by
  dsimp only [V, hostOps0]
  after_results
  rfl

/-! ## Where each window's block sits at a point -/

/-- The three input windows' block numbers at point `t`, decided over the 128 points: the activations' block is at
    (row block, feature block), the sign matrix's at (column block, feature block), the bias row's at (0, column block). -/
theorem block_numbers : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4 :=
  (by decide +kernel : ∀ t : Fin grid0.N, _)

/-! ## The blocks, read at an entry -/

/-- The activations' 1024 × 1024 block the body loads at point `t`. -/
abbrev activationBlock (c : Dev nD) (t : Fin cfg0.N) : FVec Ideal S1024x1024 .bf16 := iblk m c 0 t
/-- The sign matrix's 1024 × 1024 block the body loads at point `t`. -/
abbrev signBlock (c : Dev nD) (t : Fin cfg0.N) : FVec Ideal S1024x1024 .bf16 := iblk m c 1 t
/-- The bias row's 1 × 1024 block the body loads at point `t`. -/
abbrev biasBlock (c : Dev nD) (t : Fin cfg0.N) : FVec Ideal S1x1024 .f32 := iblk m c 2 t

/-- The activations' block at point `t`, at `(p, kk)`: the activations at row `r` and feature `k`, where `r` is position `p` of
    the point's row block and `k` position `kk` of its feature block. -/
theorem activation_block_apply (c : Dev nD) (t : Fin cfg0.N) (p kk : Fin 1024) (r : Fin 8192) (k : Fin 4096)
    (hr : r.val = t.val / 16 * 1024 + p.val) (hk : k.val = t.val % 4 * 1024 + kk.val) :
    activationBlock m c t (ix2 p kk) = activations m c (ix2 r k) := by
  obtain ⟨e0, e1, -, -, -, -⟩ := block_numbers t
  unfold activationBlock iblk
  rw [View.read_apply]
  show (V m c main_v0 : S8192x4096.Idx → EReal) (((cfg0.win 0).blk t).view.emb (ix2 p kk)) = _
  rw [staged_activations]
  refine congrArg (activations m c) (funext fun a => Fin.ext ?_)
  match a with
  | ⟨0, _⟩ => show win0_0.index t (0 : Fin 2) * 1024 + 1 * p.val = r.val; omega
  | ⟨1, _⟩ => show win0_0.index t (1 : Fin 2) * 1024 + 1 * kk.val = k.val; omega

/-- The sign matrix's block at point `t`, at `(q, kk)`: the sign of the weights at output column `col` and feature `k`, where
    `col` is position `q` of the point's column block and `k` position `kk` of its feature block. -/
theorem sign_block_apply (c : Dev nD) (t : Fin cfg0.N) (q kk : Fin 1024) (col k : Fin 4096)
    (hc : col.val = t.val / 4 % 4 * 1024 + q.val) (hk : k.val = t.val % 4 * 1024 + kk.val) :
    signBlock m c t (ix2 q kk) = Host.sign (F := Ideal) (weights m c) (ix2 col k) := by
  obtain ⟨-, -, e0, e1, -, -⟩ := block_numbers t
  unfold signBlock iblk
  rw [View.read_apply]
  show (V m c main_v2 : S4096x4096.Idx → EReal) (((cfg0.win 1).blk t).view.emb (ix2 q kk)) = _
  rw [staged_signs]
  refine congrArg (Host.sign (F := Ideal) (weights m c)) (funext fun a => Fin.ext ?_)
  match a with
  | ⟨0, _⟩ => show win0_1.index t (0 : Fin 2) * 1024 + 1 * q.val = col.val; omega
  | ⟨1, _⟩ => show win0_1.index t (1 : Fin 2) * 1024 + 1 * kk.val = k.val; omega

/-- The bias row's block at point `t`, at `(0, q)`: the sign of the bias at output column `col`, position `q` of the point's
    column block. -/
theorem bias_block_apply (c : Dev nD) (t : Fin cfg0.N) (q : Fin 1024) (col : Fin 4096)
    (hc : col.val = t.val / 4 % 4 * 1024 + q.val) :
    biasBlock m c t (ix2 (0 : Fin 1) q) = Host.sign (F := Ideal) (bias m c) (ix1 col) := by
  obtain ⟨-, -, -, -, e0, e1⟩ := block_numbers t
  unfold biasBlock iblk
  rw [View.read_apply]
  show (V m c main_v4 : S1x4096.Idx → EReal) (((cfg0.win 2).blk t).view.emb (ix2 (0 : Fin 1) q)) = _
  rw [staged_bias_row]
  refine Eq.trans (congrArg (shapeCast S1x4096 (Host.sign (F := Ideal) (bias m c)) shapeCasts_S4096_S1x4096)
    (funext fun a => Fin.ext ?_)) (shapeCast_a_1a_apply (Host.sign (F := Ideal) (bias m c)) shapeCasts_S4096_S1x4096 (0 : Fin 1) col)
  match a with
  | ⟨0, _⟩ => show win0_2.index t (0 : Fin 2) * 1 + 1 * (0 : Fin 1).val = (0 : Fin 1).val; omega
  | ⟨1, _⟩ => show win0_2.index t (1 : Fin 2) * 1024 + 1 * q.val = col.val; omega

end Cert.BinaryLinear.Kernel

end
-- ==== Proof.KernelLayer.lean ====
/-
  The kernel's result array is the layer of Spec.lean.

  The output block at (row block, column block) is built over the four grid points of its run, one per feature block:
  the first point clears the block and adds the product of its activation block and sign block; the next two add theirs;
  the last adds its product and then the bias block. So entry `(p, q)` of the block ends as
  `((0 + P₀ + P₁ + P₂) + P₃) + bias`, with `P_s` the inner product, over feature block `s`, of the activations' row and the
  sign matrix's row that the entry names. Read through the blocks, `P_s` is the sum over positions `s * 1024 + kk` of the
  products `X (r, k) * S (col, k)`; the four of them are the sum over all 4096 features (Spec.lean's regrouping law); and
  the bias block's entry is the sign of the bias at the column. Only associativity and commutativity of addition and
  `0 + a = a` are used, so nothing is asked of the inputs.
-/
import proofs.«158805_j7035156431032_2_alg».proof.Proof.Gen.KernelIdeal.Value
import proofs.«158805_j7035156431032_2_alg».proof.Proof.Spec
import proofs.«158805_j7035156431032_2_alg».proof.Proof.KernelPayloads
import proofs.«158805_j7035156431032_2_alg».proof.Proof.KernelBlocks

noncomputable section

namespace Cert.BinaryLinear.Kernel

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-! ## One point's contribution -/

/-- The product of point `n`'s activation block and sign block at entry `(p, q)` of the output block: the inner product of
    row `p` of the one with row `q` of the other. For a number past the grid it is zero (never used). -/
def blockProduct (c : Dev nD) (n : ℕ) (p q : Fin 1024) : EReal :=
  if h : n < cfg0.N then
    ∑ kk : Fin 1024, activationBlock m c ⟨n, h⟩ (ix2 p kk) * signBlock m c ⟨n, h⟩ (ix2 q kk)
  else 0

theorem blockProduct_of_lt (c : Dev nD) (n : ℕ) (h : n < cfg0.N) (p q : Fin 1024) :
    blockProduct m c n p q
      = ∑ kk : Fin 1024, activationBlock m c ⟨n, h⟩ (ix2 p kk) * signBlock m c ⟨n, h⟩ (ix2 q kk) :=
  dif_pos h

/-- The run's first point leaves zero plus its block product. -/
theorem reset_apply (c : Dev nD) (n : ℕ) (h : n < cfg0.N) (y : S1024x1024.Idx) :
    reset3 m c n h y = 0 + blockProduct m c n (y 0) (y 1) := by
  obtain ⟨p, q, rfl⟩ : ∃ (p q : Fin 1024), y = ix2 p q := ⟨y 0, y 1, eq_ix2 y⟩
  refine (accumulate_apply (k0_pay1 (F := Ideal)) (activationBlock m c ⟨n, h⟩) (signBlock m c ⟨n, h⟩) p q).trans ?_
  exact congrArg₂ (· + ·) (cleared_apply (ix2 p q)) (blockProduct_of_lt m c n h p q).symm

/-- A point that is neither first nor last of its run adds its block product to what the point before left. -/
theorem step_apply (c : Dev nD) (n : ℕ) (h : n < cfg0.N) (h0 : ¬n % 4 = 0) (h3 : ¬n % 4 = 3)
    (acc : FVec Ideal S1024x1024 .f32) (y : S1024x1024.Idx) :
    step3 m c n h acc y = acc y + blockProduct m c n (y 0) (y 1) := by
  obtain ⟨p, q, rfl⟩ : ∃ (p q : Fin 1024), y = ix2 p q := ⟨y 0, y 1, eq_ix2 y⟩
  unfold step3
  rw [if_pos ⟨h0, h3⟩]
  exact (accumulate_apply acc (activationBlock m c ⟨n, h⟩) (signBlock m c ⟨n, h⟩) p q).trans
    (congrArg (acc (ix2 p q) + ·) (blockProduct_of_lt m c n h p q).symm)

/-- The run's last point adds its block product and then the bias block's entry at the column. -/
theorem last_step_apply (c : Dev nD) (n : ℕ) (h : n < cfg0.N) (h0 : ¬n % 4 = 0) (h3 : n % 4 = 3)
    (acc : FVec Ideal S1024x1024 .f32) (y : S1024x1024.Idx) :
    step3 m c n h acc y
      = (acc y + blockProduct m c n (y 0) (y 1)) + biasBlock m c ⟨n, h⟩ (ix2 (0 : Fin 1) (y 1)) := by
  obtain ⟨p, q, rfl⟩ : ∃ (p q : Fin 1024), y = ix2 p q := ⟨y 0, y 1, eq_ix2 y⟩
  unfold step3
  rw [if_neg (fun hh => hh.2 h3), if_pos ⟨h0, h3⟩]
  refine (add_bias_apply (k0_pay2 (F := Ideal) acc (activationBlock m c ⟨n, h⟩) (signBlock m c ⟨n, h⟩)) (biasBlock m c ⟨n, h⟩) p q).trans ?_
  exact congrArg (· + biasBlock m c ⟨n, h⟩ (ix2 (0 : Fin 1) q))
    ((accumulate_apply acc (activationBlock m c ⟨n, h⟩) (signBlock m c ⟨n, h⟩) p q).trans
      (congrArg (acc (ix2 p q) + ·) (blockProduct_of_lt m c n h p q).symm))

/-! ## The contributions, read through the blocks -/

/-- The products of the activations' row `r` and the sign matrix's row `col`, feature by feature. -/
abbrev products (c : Dev nD) (r : Fin 8192) (col : Fin 4096) : Fin 4096 → EReal :=
  fun k => activations m c (ix2 r k) * Host.sign (F := Ideal) (weights m c) (ix2 col k)

/-- Point `s` of the run that builds array entry `i` contributes the products over feature block `s`. -/
theorem blockProduct_eq (c : Dev nD) (i : S8192x4096.Idx) (s : ℕ) (hs : s < 4) :
    blockProduct m c (4 * run3Of i + s) (loc3Of i 0) (loc3Of i 1)
      = ∑ kk : Fin 1024, Cert.Lib.SumBlocks.onNat (products m c (i 0) (i 1)) (s * 1024 + kk.val) := by
  have hN : cfg0.N = 128 := N_0
  have hi0 : (i 0).val < 8192 := idx2_lt0 i
  have hi1 : (i 1).val < 4096 := idx2_lt1 i
  have hr : run3Of i = 4 * ((i 0).val / 1024) + (i 1).val / 1024 := by
    show 4 * ((i 0).val / 1024 - 0) + 1 * ((i 1).val / 1024 - 0) = _
    omega
  have hl0 : (loc3Of i 0).val = (i 0).val % 1024 := rfl
  have hl1 : (loc3Of i 1).val = (i 1).val % 1024 := rfl
  have h : 4 * run3Of i + s < cfg0.N := by omega
  refine (blockProduct_of_lt m c (4 * run3Of i + s) h (loc3Of i 0) (loc3Of i 1)).trans ?_
  refine Finset.sum_congr rfl fun kk _ => ?_
  have hkk : kk.val < 1024 := kk.isLt
  have hk : s * 1024 + kk.val < 4096 := by omega
  rw [Cert.Lib.SumBlocks.onNat_of_lt _ _ hk]
  exact congrArg₂ (· * ·)
    (activation_block_apply m c ⟨4 * run3Of i + s, h⟩ (loc3Of i 0) kk (i 0) ⟨s * 1024 + kk.val, hk⟩
      (by show (i 0).val = (4 * run3Of i + s) / 16 * 1024 + (loc3Of i 0).val; omega)
      (by show s * 1024 + kk.val = (4 * run3Of i + s) % 4 * 1024 + kk.val; omega))
    (sign_block_apply m c ⟨4 * run3Of i + s, h⟩ (loc3Of i 1) kk (i 1) ⟨s * 1024 + kk.val, hk⟩
      (by show (i 1).val = (4 * run3Of i + s) / 4 % 4 * 1024 + (loc3Of i 1).val; omega)
      (by show s * 1024 + kk.val = (4 * run3Of i + s) % 4 * 1024 + kk.val; omega))

/-! ## The array -/

/-- THE KERNEL IS THE LAYER: the array the grid leaves is `layer` of the activations, the sign of the weights and the
    sign of the bias. -/
theorem result_eq_layer (c : Dev nD) :
    (Value.G3 m c : S8192x4096.Idx → EReal)
      = Cert.BinaryLinear.layer (activations m c) (Host.sign (F := Ideal) (weights m c)) (Host.sign (F := Ideal) (bias m c)) := by
  funext i
  have hN : cfg0.N = 128 := N_0
  have hi0 : (i 0).val < 8192 := idx2_lt0 i
  have hi1 : (i 1).val < 4096 := idx2_lt1 i
  have hr : run3Of i = 4 * ((i 0).val / 1024) + (i 1).val / 1024 := by
    show 4 * ((i 0).val / 1024 - 0) + 1 * ((i 1).val / 1024 - 0) = _
    omega
  have hl1 : (loc3Of i 1).val = (i 1).val % 1024 := rfl
  have hb : 4 * run3Of i + 3 < cfg0.N := by omega
  have hb2 : 4 * run3Of i + 2 < cfg0.N := by omega
  -- the first three points of the run: zero plus their block products
  have h2 : Pipeline.accAt (reset3 m c) (step3 m c) (4 * run3Of i) 2 hb2 (loc3Of i)
      = 0 + ∑ s ∈ Finset.range (2 + 1), blockProduct m c (4 * run3Of i + s) (loc3Of i 0) (loc3Of i 1) :=
    Pipeline.accAt_add_apply (reset3 m c) (step3 m c) (fun _ => (0 : EReal))
      (fun n y => blockProduct m c n (y 0) (y 1)) (4 * run3Of i) 2
      (fun h y => reset_apply m c _ h y)
      (fun n h acc y hlt hle => step_apply m c n h (by omega) (by omega) acc y)
      2 (le_refl 2) hb2 (loc3Of i)
  -- the last point's step, over what the third left
  have hlast : Pipeline.accAt (reset3 m c) (step3 m c) (4 * run3Of i) 3 hb
      = step3 m c (4 * run3Of i + 3) hb (Pipeline.accAt (reset3 m c) (step3 m c) (4 * run3Of i) 2 hb2) := rfl
  unfold Value.G3
  rw [dif_pos hb, hlast, last_step_apply m c (4 * run3Of i + 3) hb (by omega) (by omega), h2,
    bias_block_apply m c ⟨4 * run3Of i + 3, hb⟩ (loc3Of i 1) (i 1)
      (by show (i 1).val = (4 * run3Of i + 3) / 4 % 4 * 1024 + (loc3Of i 1).val; omega),
    zero_add, ← Finset.sum_range_succ (fun s => blockProduct m c (4 * run3Of i + s) (loc3Of i 0) (loc3Of i 1)) (2 + 1),
    Finset.sum_congr rfl fun s hs => blockProduct_eq m c i s (Finset.mem_range.mp hs),
    ← Cert.BinaryLinear.sum_features_blocks (products m c (i 0) (i 1))]
  rfl

end Cert.BinaryLinear.Kernel

end
-- ==== Proof.lean ====
/-
  A binary linear layer, `out = x · sign(W)ᵀ + sign(b)`, computed two ways that agree over the extended reals.

  The reference takes the sign of the weights and of the bias, and forms every output entry `(r, c)` as the inner product,
  over the 4096 input features, of row `r` of the activations with row `c` of the sign matrix, plus entry `c` of the sign of
  the bias. The kernel takes the same signs, then tiles the output into 1024 × 1024 blocks and builds each block over four
  grid points, one per block of 1024 features: it clears the block, adds the four partial products, and adds the bias
  row at the last. Its narrowings to bf16 are the identity on the extended reals. Both are the function `layer` of
  Proof/Spec.lean — the reference by reading its operations at an entry (Proof/ReferenceLayer.lean), the kernel by
  reading the fold its grid leaves in the array (Proof/KernelPayloads.lean, Proof/KernelBlocks.lean,
  Proof/KernelLayer.lean) — and the one law between the two arrangements is that a finite sum may be regrouped into
  consecutive blocks. That law holds in every commutative monoid, so the precondition (finite inputs) is never used for
  the values. The idealization rewrote nothing in the kernel, so there is nothing to preserve; each program's frame is
  its generated run with the values dropped.
-/
import proofs.«158805_j7035156431032_2_alg».proof.Defs
import proofs.«158805_j7035156431032_2_alg».proof.Proof.Gen.Kernel.Frame
import proofs.«158805_j7035156431032_2_alg».proof.Proof.Gen.KernelIdeal.Value
import proofs.«158805_j7035156431032_2_alg».proof.Proof.Gen.Pre_finite_inputs
import proofs.«158805_j7035156431032_2_alg».proof.Proof.Gen.ReferenceIdeal.Run
import proofs.«158805_j7035156431032_2_alg».proof.Proof.ReferenceLayer
import proofs.«158805_j7035156431032_2_alg».proof.Proof.KernelLayer
import Idealize.ShloMosaic.Adequacy
import Idealize.ShloMosaic.Init

noncomputable section

namespace Cert.Proof

open Idealize.ShloMosaic Idealize.SL.Sem

/-- The idealized kernel terminates without a fault and leaves its arguments as they were: its value run, the result
    forgotten. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments the two programs end with equal result arrays: the kernel's array
    is the fold its grid leaves, the reference's its last operation's value, and each is the layer of the activations,
    the sign of the weights and the sign of the bias. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v6_eq (F := Ideal) _ _ _).trans
      (Cert.BinaryLinear.Reference.result_eq_layer _ _ _)).trans
    (Cert.BinaryLinear.Kernel.result_eq_layer m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
